-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x16 : S_.BroadcastsInDim S32x16 (![] : Fin 0 → Fin S32x16.rank)
  reducesTo_S32x16_S_d0_1 : S32x16.ReducesTo [0, 1] S_
  bcast_S_S256x128 : S_.BroadcastsInDim S256x128 (![] : Fin 0 → Fin S256x128.rank)
  reducesTo_S256x128_S_d0_1 : S256x128.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S32x1024x128 .f32) (main_arg1 : FVec F S32x16 .f32) (main_arg2 : FVec F S256x128 .f32) (main_arg3 : FVec F S16x128 .f32) (main_arg4 : FVec F S16 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_c_1 : IVec S_ 1 := constantI S_ 1 1#1
  let main_v7 : IVec S_ 1 := (fun x v => Host.reduce IntOp.andi x v reducesTo_S32x16_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S16x128 .f32 := Host.absf main_arg3
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg4 main_v13 main_v16
-- ==== Kernel.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S128x16 : Shape := ⟨2, ![128, 16]⟩
abbrev S16x16 : Shape := ⟨2, ![16, 16]⟩
abbrev S1x16 : Shape := ⟨2, ![1, 16]⟩
abbrev S1x256 : Shape := ⟨2, ![1, 256]⟩
abbrev S1x128x1x16 : Shape := ⟨4, ![1, 128, 1, 16]⟩
abbrev S1x128x16x16 : Shape := ⟨4, ![1, 128, 16, 16]⟩
abbrev S128x256 : Shape := ⟨2, ![128, 256]⟩
abbrev S32x16x16 : Shape := ⟨3, ![32, 16, 16]⟩
abbrev S32x256 : Shape := ⟨2, ![32, 256]⟩
abbrev S32x1x256 : Shape := ⟨3, ![32, 1, 256]⟩
abbrev S32x16x128x128 : Shape := ⟨4, ![32, 16, 128, 128]⟩
abbrev S4x1024x128 : Shape := ⟨3, ![4, 1024, 128]⟩
abbrev S4x1x256 : Shape := ⟨3, ![4, 1, 256]⟩
abbrev S4x16x128x128 : Shape := ⟨4, ![4, 16, 128, 128]⟩
abbrev S4096x128 : Shape := ⟨2, ![4096, 128]⟩
abbrev S4096x256 : Shape := ⟨2, ![4096, 256]⟩
abbrev S4x1024x256 : Shape := ⟨3, ![4, 1024, 256]⟩
abbrev S1x1x256 : Shape := ⟨3, ![1, 1, 256]⟩
abbrev S1x1024x256 : Shape := ⟨3, ![1, 1024, 256]⟩
abbrev S1024x256 : Shape := ⟨2, ![1024, 256]⟩
abbrev S32x32x16x4x4 : Shape := ⟨5, ![32, 32, 16, 4, 4]⟩
abbrev S16x32x4x32x4 : Shape := ⟨5, ![16, 32, 4, 32, 4]⟩
abbrev S16x128x128 : Shape := ⟨3, ![16, 128, 128]⟩
abbrev S1x16x128x128 : Shape := ⟨4, ![1, 16, 128, 128]⟩

abbrev nBuf : Space → Nat
  | .hbm => 21
  | .vmem => 8
  | .smem => 0
  | _ => 0

abbrev bufTy : (tb : Table) → Fin (tcTables nBuf tb) → BufTy
  | .hbm, ⟨0, _⟩ => ⟨S32x1024x128, .f32⟩
  | .hbm, ⟨1, _⟩ => ⟨S32x16, .f32⟩
  | .hbm, ⟨2, _⟩ => ⟨S256x128, .f32⟩
  | .hbm, ⟨3, _⟩ => ⟨S16x128, .f32⟩
  | .hbm, ⟨4, _⟩ => ⟨S16, .f32⟩
  | .hbm, ⟨5, _⟩ => ⟨S16x128, .f32⟩
  | .hbm, ⟨6, _⟩ => ⟨S128x16, .f32⟩
  | .hbm, ⟨7, _⟩ => ⟨S16x16, .f32⟩
  | .hbm, ⟨8, _⟩ => ⟨S1x16, .f32⟩
  | .hbm, ⟨9, _⟩ => ⟨S16x16, .f32⟩
  | .hbm, ⟨10, _⟩ => ⟨S16x16, .f32⟩
  | .hbm, ⟨11, _⟩ => ⟨S1x256, .f32⟩
  | .hbm, ⟨12, _⟩ => ⟨S128x16, .f32⟩
  | .hbm, ⟨13, _⟩ => ⟨S1x128x1x16, .f32⟩
  | .hbm, ⟨14, _⟩ => ⟨S1x128x16x16, .f32⟩
  | .hbm, ⟨15, _⟩ => ⟨S128x256, .f32⟩
  | .hbm, ⟨16, _⟩ => ⟨S128x256, .bf16⟩
  | .hbm, ⟨17, _⟩ => ⟨S32x16x16, .f32⟩
  | .hbm, ⟨18, _⟩ => ⟨S32x256, .f32⟩
  | .hbm, ⟨19, _⟩ => ⟨S32x1x256, .f32⟩
  | .hbm, ⟨20, _⟩ => ⟨S32x16x128x128, .f32⟩
  | .local _ .vmem, ⟨0, _⟩ => ⟨S4x1024x128, .f32⟩
  | .local _ .vmem, ⟨1, _⟩ => ⟨S4x1024x128, .f32⟩
  | .local _ .vmem, ⟨2, _⟩ => ⟨S128x256, .bf16⟩
  | .local _ .vmem, ⟨3, _⟩ => ⟨S1x256, .f32⟩
  | .local _ .vmem, ⟨4, _⟩ => ⟨S4x1x256, .f32⟩
  | .local _ .vmem, ⟨5, _⟩ => ⟨S4x1x256, .f32⟩
  | .local _ .vmem, ⟨6, _⟩ => ⟨S4x16x128x128, .f32⟩
  | .local _ .vmem, ⟨7, _⟩ => ⟨S4x16x128x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x16x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S256x128_S16x128_0_0 : S256x128.Slices ![0, 0] S16x128
  transposes_S16x128_S128x16_1_0 : S16x128.Transposes [1, 0] S128x16
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  shapeCasts_S16x16_S1x256 : S16x16.ShapeCasts S1x256
  shapeCasts_S128x16_S1x128x1x16 : S128x16.ShapeCasts S1x128x1x16
  bcast_S1x128x1x16_S1x128x16x16_0_1_2_3 : S1x128x1x16.BroadcastsInDim S1x128x16x16 (![0, 1, 2, 3] : Fin 4 → Fin S1x128x16x16.rank)
  shapeCasts_S1x128x16x16_S128x256 : S1x128x16x16.ShapeCasts S128x256
  bitsLt_bf16_f32 : FTy.bits .bf16 < FTy.bits .f32
  bcast_S32x16_S32x16x16_0_1 : S32x16.BroadcastsInDim S32x16x16 (![0, 1] : Fin 2 → Fin S32x16x16.rank)
  shapeCasts_S32x16x16_S32x256 : S32x16x16.ShapeCasts S32x256
  shapeCasts_S32x256_S32x1x256 : S32x256.ShapeCasts S32x1x256
  inb_S4x1024x128_S4x1024x128_0_0_0 : ∀ a, (![0, 0, 0] : Fin 3 → Nat) a + S4x1024x128.size a ≤ S4x1024x128.size a
  h_S4x1024x128 : 0 < S4x1024x128.numel
  shapeCasts_S4x1024x128_S4096x128 : S4x1024x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S4096x256_S4x1024x256 : S4096x256.ShapeCasts S4x1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S4x1024x256 : S1x1x256.Broadcasts S4x1024x256
  inb_S4x1x256_S4x1x256_0_0_0 : ∀ a, (![0, 0, 0] : Fin 3 → Nat) a + S4x1x256.size a ≤ S4x1x256.size a
  h_S4x1x256 : 0 < S4x1x256.numel
  shapeCasts_S4x1x256_S4x1x256 : S4x1x256.ShapeCasts S4x1x256
  broadcasts_S4x1x256_S4x1024x256 : S4x1x256.Broadcasts S4x1024x256
  slices_S4x1024x256_o0_0_0_S1x1024x256 : S4x1024x256.Slices ![0, 0, 0] S1x1024x256
  shapeCasts_S1x1024x256_S1024x256 : S1x1024x256.ShapeCasts S1024x256
  shapeCasts_S1024x256_S32x32x16x4x4 : S1024x256.ShapeCasts S32x32x16x4x4
  transposes_S32x32x16x4x4_p2_0_3_1_4_S16x32x4x32x4 : S32x32x16x4x4.Transposes [2, 0, 3, 1, 4] S16x32x4x32x4
  shapeCasts_S16x32x4x32x4_S16x128x128 : S16x32x4x32x4.ShapeCasts S16x128x128
  inb_S4x16x128x128_S1x16x128x128_0_0_0_0 : ∀ a, (![0, 0, 0, 0] : Fin 4 → Nat) a + S1x16x128x128.size a ≤ S4x16x128x128.size a
  h_S1x16x128x128 : 0 < S1x16x128x128.numel
  shapeCasts_S1x16x128x128_S16x128x128 : S1x16x128x128.ShapeCasts S16x128x128
  shapeCasts_S16x128x128_S1x16x128x128 : S16x128x128.ShapeCasts S1x16x128x128
  slices_S4x1024x256_o1_0_0_S1x1024x256 : S4x1024x256.Slices ![1, 0, 0] S1x1024x256
  inb_S4x16x128x128_S1x16x128x128_1_0_0_0 : ∀ a, (![1, 0, 0, 0] : Fin 4 → Nat) a + S1x16x128x128.size a ≤ S4x16x128x128.size a
  slices_S4x1024x256_o2_0_0_S1x1024x256 : S4x1024x256.Slices ![2, 0, 0] S1x1024x256
  inb_S4x16x128x128_S1x16x128x128_2_0_0_0 : ∀ a, (![2, 0, 0, 0] : Fin 4 → Nat) a + S1x16x128x128.size a ≤ S4x16x128x128.size a
  slices_S4x1024x256_o3_0_0_S1x1024x256 : S4x1024x256.Slices ![3, 0, 0] S1x1024x256
  inb_S4x16x128x128_S1x16x128x128_3_0_0_0 : ∀ a, (![3, 0, 0, 0] : Fin 4 → Nat) a + S1x16x128x128.size a ≤ S4x16x128x128.size a
  dot_S16x128_S128x16_S16x16_1_0_0_1_n_n_wf : DotDims.WF S16x128 S128x16 S16x16 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x128.size a ≤ S32x1024x128.size a
  hwx0_0 : ∀ i : grid0.Coords, EltTy.bits .f32 = 32 ∨ (Rect.block (s := S32x1024x128) S4x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x256.size a ≤ S32x1x256.size a
  hwx0_3 : ∀ i : grid0.Coords, EltTy.bits .f32 = 32 ∨ (Rect.block (s := S32x1x256) S4x1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x16x128x128.size a ≤ S32x16x128x128.size a
  hwx0_4 : ∀ i : grid0.Coords, EltTy.bits .f32 = 32 ∨ (Rect.block (s := S32x16x128x128) S4x16x128x128.size (cc0_transform_4 i) (hinb0_4 i)).WholeWords (EltTy.packing .f32)

variable [Facts₀]

def dot_S16x128_S128x16_S16x16_1_0_0_1_n_n : DotDims S16x128 S128x16 S16x16 where
  lhsContracting := [1]
  rhsContracting := [0]
  lhsNonContracting := [0]
  rhsNonContracting := [1]
  lhsBatch := []
  rhsBatch := []
  wf := dot_S16x128_S128x16_S16x16_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S4x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S4x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4x16x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x16 : Shape := ⟨2, ![32, 16]⟩
abbrev S256x128 : Shape := ⟨2, ![256, 128]⟩
abbrev S16x128 : Shape := ⟨2, ![16, 128]⟩
abbrev S16 : Shape := ⟨1, ![16]⟩
abbrev S32x1x1024x128 : Shape := ⟨4, ![32, 1, 1024, 128]⟩
abbrev S1x16x1x128 : Shape := ⟨4, ![1, 16, 1, 128]⟩
abbrev S32x16x1024x128 : Shape := ⟨4, ![32, 16, 1024, 128]⟩
abbrev S32x16x1024x16 : Shape := ⟨4, ![32, 16, 1024, 16]⟩
abbrev S1x1x1x16 : Shape := ⟨4, ![1, 1, 1, 16]⟩
abbrev S32x16x32x32x4x4 : Shape := ⟨6, ![32, 16, 32, 32, 4, 4]⟩
abbrev S32x16x32x4x32x4 : Shape := ⟨6, ![32, 16, 32, 4, 32, 4]⟩
abbrev S32x16x128x128 : Shape := ⟨4, ![32, 16, 128, 128]⟩
abbrev S32x16x1x1 : Shape := ⟨4, ![32, 16, 1, 1]⟩

abbrev nBuf : Space → Nat
  | .hbm => 21
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x16, .f32⟩
  | .hbm, ⟨2, _⟩ => ⟨S256x128, .f32⟩
  | .hbm, ⟨3, _⟩ => ⟨S16x128, .f32⟩
  | .hbm, ⟨4, _⟩ => ⟨S16, .f32⟩
  | .hbm, ⟨5, _⟩ => ⟨S16x128, .f32⟩
  | .hbm, ⟨6, _⟩ => ⟨S32x1x1024x128, .f32⟩
  | .hbm, ⟨7, _⟩ => ⟨S1x16x1x128, .f32⟩
  | .hbm, ⟨8, _⟩ => ⟨S32x16x1024x128, .f32⟩
  | .hbm, ⟨9, _⟩ => ⟨S32x16x1024x128, .f32⟩
  | .hbm, ⟨10, _⟩ => ⟨S32x16x1024x128, .f32⟩
  | .hbm, ⟨11, _⟩ => ⟨S32x16x1024x16, .f32⟩
  | .hbm, ⟨12, _⟩ => ⟨S1x1x1x16, .f32⟩
  | .hbm, ⟨13, _⟩ => ⟨S32x16x1024x16, .f32⟩
  | .hbm, ⟨14, _⟩ => ⟨S32x16x1024x16, .f32⟩
  | .hbm, ⟨15, _⟩ => ⟨S32x16x32x32x4x4, .f32⟩
  | .hbm, ⟨16, _⟩ => ⟨S32x16x32x4x32x4, .f32⟩
  | .hbm, ⟨17, _⟩ => ⟨S32x16x128x128, .f32⟩
  | .hbm, ⟨18, _⟩ => ⟨S32x16x1x1, .f32⟩
  | .hbm, ⟨19, _⟩ => ⟨S32x16x128x128, .f32⟩
  | .hbm, ⟨20, _⟩ => ⟨S32x16x128x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S256x128_S16x128_0_0 : S256x128.Slices ![0, 0] S16x128
  bcast_S32x1024x128_S32x1x1024x128_0_2_3 : S32x1024x128.BroadcastsInDim S32x1x1024x128 (![0, 2, 3] : Fin 3 → Fin S32x1x1024x128.rank)
  bcast_S16x128_S1x16x1x128_1_3 : S16x128.BroadcastsInDim S1x16x1x128 (![1, 3] : Fin 2 → Fin S1x16x1x128.rank)
  bcast_S32x1x1024x128_S32x16x1024x128_0_1_2_3 : S32x1x1024x128.BroadcastsInDim S32x16x1024x128 (![0, 1, 2, 3] : Fin 4 → Fin S32x16x1024x128.rank)
  bcast_S1x16x1x128_S32x16x1024x128_0_1_2_3 : S1x16x1x128.BroadcastsInDim S32x16x1024x128 (![0, 1, 2, 3] : Fin 4 → Fin S32x16x1024x128.rank)
  bcast_S16_S1x1x1x16_3 : S16.BroadcastsInDim S1x1x1x16 (![3] : Fin 1 → Fin S1x1x1x16.rank)
  bcast_S1x1x1x16_S32x16x1024x16_0_1_2_3 : S1x1x1x16.BroadcastsInDim S32x16x1024x16 (![0, 1, 2, 3] : Fin 4 → Fin S32x16x1024x16.rank)
  shapeCasts_S32x16x1024x16_S32x16x32x32x4x4 : S32x16x1024x16.ShapeCasts S32x16x32x32x4x4
  transposes_S32x16x32x32x4x4_S32x16x32x4x32x4_0_1_2_4_3_5 : S32x16x32x32x4x4.Transposes [0, 1, 2, 4, 3, 5] S32x16x32x4x32x4
  shapeCasts_S32x16x32x4x32x4_S32x16x128x128 : S32x16x32x4x32x4.ShapeCasts S32x16x128x128
  bcast_S32x16_S32x16x1x1_0_1 : S32x16.BroadcastsInDim S32x16x1x1 (![0, 1] : Fin 2 → Fin S32x16x1x1.rank)
  bcast_S32x16x1x1_S32x16x128x128_0_1_2_3 : S32x16x1x1.BroadcastsInDim S32x16x128x128 (![0, 1, 2, 3] : Fin 4 → Fin S32x16x128x128.rank)
  dot_S32x16x1024x128_S16x128_S32x16x1024x16_3_1_012_0_n_n_wf : DotDims.WF S32x16x1024x128 S16x128 S32x16x1024x16 [3] [1] [0, 1, 2] [0] [] []

variable [Facts₀]

def dot_S32x16x1024x128_S16x128_S32x16x1024x16_3_1_012_0_n_n : DotDims S32x16x1024x128 S16x128 S32x16x1024x16 where
  lhsContracting := [3]
  rhsContracting := [1]
  lhsNonContracting := [0, 1, 2]
  rhsNonContracting := [0]
  lhsBatch := []
  rhsBatch := []
  wf := dot_S32x16x1024x128_S16x128_S32x16x1024x16_3_1_012_0_n_n_wf

class Facts : Prop extends Facts₀ where

variable [Facts]
-- ==== Proof.Spec.lean ====
/-
  What the decoder head computes, as one function of the five argument arrays, written two ways.

  An output pixel is `(b, c, R, C)`: batch `b`, channel `c`, image row `R` and column `C` (128 × 128). The image is a
  32 × 32 grid of 4 × 4 patches: pixel `(R, C)` lies in the patch of grid row `R / 4` and grid column `C / 4`, which is
  token `n = 32 · (R / 4) + C / 4` of the sequence, at position `p = 4 · (R % 4) + C % 4` inside the patch. The head
  is linear: with `x` the tokens, `e` the channel embedding table (its first 16 rows are used), `w` the head's weight
  (row `p`), `β` its bias and `μ` the pixel mask,

    summed form       (∑ d, (x (b, n, d) + e (c, d)) · w (p, d)  +  β p) · μ (b, c)
    split form        (∑ d, x (b, n, d) · w (p, d)  +  (∑ d, e (c, d) · w (p, d) + β p)) · μ (b, c)

  The summed form adds the embedding before the contraction; the split form contracts tokens and embedding apart and
  adds afterwards. They agree where `x`, `e`, `w` are real numbers: termwise `(x + e) · w = x · w + e · w`, then
  a sum of sums and associativity of `+`. On the extended reals the termwise law fails at the infinities (for
  instance `(⊤ + ⊥) · w`), so finiteness of those three arrays is used; the bias and the mask may be anything.
-/
import Idealize.ShloMosaic.PureOps.Ideal
import Idealize.ShloMosaic.Lib.ValueIdx

noncomputable section

open scoped BigOperators

namespace Cert.Proof.Spec

open Idealize.ShloMosaic Idealize.ShloMosaic.ValueIdx

/-- The token of the patch that image pixel `(R, C)` lies in: grid row `R / 4`, grid column `C / 4`, row-major. -/
def tok (R C : Fin 128) : Fin 1024 :=
  ⟨32 * (R.val / 4) + C.val / 4, by have := R.isLt; have := C.isLt; omega⟩

/-- The position of image pixel `(R, C)` inside its 4 × 4 patch, row-major. -/
def pos (R C : Fin 128) : Fin 16 :=
  ⟨4 * (R.val % 4) + C.val % 4, by omega⟩

/-- Channel `c` as a row of the 256-row embedding table: the first 16 rows are the ones used. -/
def chan (c : Fin 16) : Fin 256 := ⟨c.val, by have := c.isLt; omega⟩

/-- Lane `16 · c + p` of a 256-wide row: channel `c`, position `p` inside the patch. -/
def lane (c p : Fin 16) : Fin 256 := ⟨16 * c.val + p.val, by have := c.isLt; have := p.isLt; omega⟩

theorem lane_val (c p : Fin 16) : (lane c p).val = 16 * c.val + p.val := rfl
theorem tok_val (R C : Fin 128) : (tok R C).val = 32 * (R.val / 4) + C.val / 4 := rfl
theorem pos_val (R C : Fin 128) : (pos R C).val = 4 * (R.val % 4) + C.val % 4 := rfl
theorem chan_val (c : Fin 16) : (chan c).val = c.val := rfl

variable (x : FVec Ideal ⟨3, ![32, 1024, 128]⟩ .f32) (μ : FVec Ideal ⟨2, ![32, 16]⟩ .f32)
  (e : FVec Ideal ⟨2, ![256, 128]⟩ .f32) (w : FVec Ideal ⟨2, ![16, 128]⟩ .f32) (β : FVec Ideal ⟨1, ![16]⟩ .f32)

/-- The head with the embedding added to the tokens BEFORE the contraction. -/
def summedForm (b : Fin 32) (c : Fin 16) (R C : Fin 128) : EReal :=
  ((∑ d : Fin 128, (x (ix3 b (tok R C) d) + e (ix2 (chan c) d)) * w (ix2 (pos R C) d)) + β (ix1 (pos R C))) * μ (ix2 b c)

/-- The head with tokens and embedding contracted APART and added afterwards. -/
def splitForm (b : Fin 32) (c : Fin 16) (R C : Fin 128) : EReal :=
  ((∑ d : Fin 128, x (ix3 b (tok R C) d) * w (ix2 (pos R C) d))
    + ((∑ d : Fin 128, e (ix2 (chan c) d) * w (ix2 (pos R C) d)) + β (ix1 (pos R C)))) * μ (ix2 b c)

/-- An extended real that is a real number. -/
def IsReal (a : EReal) : Prop := ∃ r : ℝ, a = (r : EReal)

/-- A contraction of a sum against a common factor splits, for real entries: termwise
    `(a + b) · c = a · c + b · c` on the reals, then the sum of a sum. -/
theorem sum_add_mul {ι : Type} [Fintype ι] (f g h : ι → EReal) (hf : ∀ d, IsReal (f d)) (hg : ∀ d, IsReal (g d))
    (hh : ∀ d, IsReal (h d)) : ∑ d, (f d + g d) * h d = ∑ d, f d * h d + ∑ d, g d * h d := by
  rw [← Finset.sum_add_distrib]
  refine Finset.sum_congr rfl fun d _ => ?_
  obtain ⟨a, ha⟩ := hf d
  obtain ⟨b, hb⟩ := hg d
  obtain ⟨c, hc⟩ := hh d
  rw [ha, hb, hc, ← EReal.coe_add, ← EReal.coe_mul, ← EReal.coe_mul, ← EReal.coe_mul, ← EReal.coe_add, add_mul]

/-- Where the tokens, the embedding table and the weight are real, the two forms are one number. -/
theorem summedForm_eq_splitForm (hx : ∀ i, IsReal (x i)) (he : ∀ i, IsReal (e i)) (hw : ∀ i, IsReal (w i))
    (b : Fin 32) (c : Fin 16) (R C : Fin 128) : summedForm x μ e w β b c R C = splitForm x μ e w β b c R C := by
  unfold summedForm splitForm
  rw [sum_add_mul _ _ _ (fun d => hx _) (fun d => he _) (fun d => hw _), add_assoc]

end Cert.Proof.Spec

end
-- ==== Proof.Arrays.lean ====
/-
  The head's two forms as whole output arrays `[32, 16, 128, 128]`: entry `(b, c, R, C)` is the form at that pixel.
  Where the tokens, the embedding table and the weight are real numbers the two arrays are equal.
-/
import proofs.«119319_j37546604102322_2_alg».proof.Proof.Spec

noncomputable section

namespace Cert.Proof.Spec

open Idealize.ShloMosaic Idealize.ShloMosaic.ValueIdx

variable (x : FVec Ideal ⟨3, ![32, 1024, 128]⟩ .f32) (μ : FVec Ideal ⟨2, ![32, 16]⟩ .f32)
  (e : FVec Ideal ⟨2, ![256, 128]⟩ .f32) (w : FVec Ideal ⟨2, ![16, 128]⟩ .f32) (β : FVec Ideal ⟨1, ![16]⟩ .f32)

/-- The output array with tokens and embedding contracted apart. -/
def splitArray : FVec Ideal ⟨4, ![32, 16, 128, 128]⟩ .f32 := fun i => splitForm x μ e w β (i 0) (i 1) (i 2) (i 3)

/-- The output array with the embedding added to the tokens before the contraction. -/
def summedArray : FVec Ideal ⟨4, ![32, 16, 128, 128]⟩ .f32 := fun i => summedForm x μ e w β (i 0) (i 1) (i 2) (i 3)

/-- Real tokens, embedding and weight: one array. -/
theorem summedArray_eq_splitArray (hx : ∀ i, IsReal (x i)) (he : ∀ i, IsReal (e i)) (hw : ∀ i, IsReal (w i)) :
    summedArray x μ e w β = splitArray x μ e w β :=
  funext fun i => summedForm_eq_splitForm x μ e w β hx he hw (i 0) (i 1) (i 2) (i 3)

end Cert.Proof.Spec

end
-- ==== Proof.Relay.lean ====
/-
  One batch's slab of the head's output, re-laid as images.

  The body holds the head's output for four batches as a `[4, 1024, 256]` value: batch, token, lane, where lane
  `16 · c + p` is channel `c` at position `p` inside a patch. For each batch it takes that batch's `[1024, 256]` slab,
  views the 1024 tokens as the 32 × 32 grid of patches and the 256 lanes as 16 channels of 4 × 4 positions
  (`[32, 32, 16, 4, 4]`: grid row, grid column, channel, patch row, patch column), moves the channel to the front and
  each patch row next to its grid row (`[16, 32, 4, 32, 4]`), and flattens to `[16, 128, 128]`: image row
  `R = 4 · gridrow + patchrow`, image column `C = 4 · gridcol + patchcol`. Read backwards: pixel `(c, R, C)` of batch
  `nb` is the slab's entry at token `32 · (R / 4) + C / 4` and lane `16 · c + 4 · (R % 4) + C % 4`. Nothing here
  computes: every step only moves entries, so the statement holds for entries of any type.
-/
import proofs.«119319_j37546604102322_2_alg».proof.Proof.Gen.KernelIdeal
import proofs.«119319_j37546604102322_2_alg».proof.Proof.Spec
import Idealize.ShloMosaic.Lib.Pipeline.Value
import Idealize.ShloMosaic.Lib.ValueIdx

noncomputable section

namespace Cert.KernelIdeal.Relay

open Cert.KernelIdeal Cert.KernelIdeal.Gen Cert.Proof.Spec Idealize.ShloMosaic Idealize.ShloMosaic.ValueIdx

variable {α : Type}

/-- Batch `nb`'s slab is a unit-stride slice of the four batches' value. -/
theorem slices_batch (nb : Fin 4) : S4x1024x256.Slices ![nb.val, 0, 0] S1x1024x256 :=
  ⟨rfl, fun a => match a with
    | ⟨0, _⟩ => by have := nb.isLt; show nb.val + 1 ≤ 4; omega
    | ⟨1, _⟩ => by show 0 + 1024 ≤ 1024; omega
    | ⟨2, _⟩ => by show 0 + 256 ≤ 256; omega⟩

/-- Batch `nb`'s slab re-laid as 16 channel images, with the unit batch axis a stored block carries. -/
def relay (nb : Fin 4) (v : S4x1024x256.Idx → α) : S1x16x128x128.Idx → α :=
  shapeCast S1x16x128x128
    (shapeCast S16x128x128
      (transpose S16x32x4x32x4 [2, 0, 3, 1, 4]
        (shapeCast S32x32x16x4x4
          (shapeCast S1024x256
            (extractStridedSlice S1x1024x256 ![nb.val, 0, 0] v (slices_batch nb))
            shapeCasts_S1x1024x256_S1024x256)
          shapeCasts_S1024x256_S32x32x16x4x4)
        transposes_S32x32x16x4x4_p2_0_3_1_4_S16x32x4x32x4)
      shapeCasts_S16x32x4x32x4_S16x128x128)
    shapeCasts_S16x128x128_S1x16x128x128

/-- Pixel `(c, R, C)` of batch `nb`'s images is the value at batch `nb`, the token of the pixel's patch, and the lane
    of channel `c` at the pixel's position inside the patch. -/
theorem relay_apply (nb : Fin 4) (v : S4x1024x256.Idx → α) (x : S1x16x128x128.Idx) :
    relay nb v x = v (ix3 nb (tok (x 2) (x 3)) (lane (x 1) (pos (x 2) (x 3)))) := by
  have h0 : (x 0).val < 1 := (x 0).isLt
  have h1 : (x 1).val < 16 := (x 1).isLt
  have h2 : (x 2).val < 128 := (x 2).isLt
  have h3 : (x 3).val < 128 := (x 3).isLt
  unfold relay
  -- the unit batch axis: [1, 16, 128, 128] at x reads [16, 128, 128] at (x 1, x 2, x 3)
  refine (shapeCast_apply _ _ x (ix3 (x 1) (x 2) (x 3) : S16x128x128.Idx) (by
      rw [Shape.rowMajor_val_three, Shape.rowMajor_val_four]
      show ((x 1).val * 128 + (x 2).val) * 128 + (x 3).val
        = (((x 0).val * 16 + (x 1).val) * 128 + (x 2).val) * 128 + (x 3).val
      omega)).trans ?_
  -- the image split into patches: (c, R, C) reads (c, R / 4, R % 4, C / 4, C % 4)
  refine (shapeCast_apply _ _ _
    (ix5 (x 1) (⟨(x 2).val / 4, by omega⟩ : Fin 32) (⟨(x 2).val % 4, by omega⟩ : Fin 4)
      (⟨(x 3).val / 4, by omega⟩ : Fin 32) (⟨(x 3).val % 4, by omega⟩ : Fin 4) : S16x32x4x32x4.Idx) (by
      rw [Shape.rowMajor_val_five, Shape.rowMajor_val_three]
      show ((((x 1).val * 32 + (x 2).val / 4) * 4 + (x 2).val % 4) * 32 + (x 3).val / 4) * 4 + (x 3).val % 4
        = ((x 1).val * 128 + (x 2).val) * 128 + (x 3).val
      omega)).trans ?_
  -- the transpose [2, 0, 3, 1, 4]: (c, gr, pr, gc, pc) reads (gr, gc, c, pr, pc)
  refine (transpose_apply _ _ _ _
    (ix5 (⟨(x 2).val / 4, by omega⟩ : Fin 32) (⟨(x 3).val / 4, by omega⟩ : Fin 32) (x 1)
      (⟨(x 2).val % 4, by omega⟩ : Fin 4) (⟨(x 3).val % 4, by omega⟩ : Fin 4) : S32x32x16x4x4.Idx)
    (fun b => match b with | ⟨0, _⟩ => rfl | ⟨1, _⟩ => rfl | ⟨2, _⟩ => rfl | ⟨3, _⟩ => rfl | ⟨4, _⟩ => rfl)).trans ?_
  -- tokens as the grid, lanes as channel and position: (gr, gc, c, pr, pc) reads (32 gr + gc, 16 c + 4 pr + pc)
  refine (shapeCast_apply _ _ _ (ix2 (tok (x 2) (x 3)) (lane (x 1) (pos (x 2) (x 3))) : S1024x256.Idx) (by
      rw [Shape.rowMajor_val_two, Shape.rowMajor_val_five]
      show (32 * ((x 2).val / 4) + (x 3).val / 4) * 256 + (16 * (x 1).val + (4 * ((x 2).val % 4) + (x 3).val % 4))
        = (((((x 2).val / 4) * 32 + (x 3).val / 4) * 16 + (x 1).val) * 4 + (x 2).val % 4) * 4 + (x 3).val % 4
      omega)).trans ?_
  -- the slab's unit batch axis: (n, l) reads (0, n, l)
  refine (shapeCast_apply _ _ _
    (ix3 (⟨0, Nat.one_pos⟩ : Fin 1) (tok (x 2) (x 3)) (lane (x 1) (pos (x 2) (x 3))) : S1x1024x256.Idx) (by
      rw [Shape.rowMajor_val_three, Shape.rowMajor_val_two]
      show (0 * 1024 + (32 * ((x 2).val / 4) + (x 3).val / 4)) * 256 + (16 * (x 1).val + (4 * ((x 2).val % 4) + (x 3).val % 4))
        = (32 * ((x 2).val / 4) + (x 3).val / 4) * 256 + (16 * (x 1).val + (4 * ((x 2).val % 4) + (x 3).val % 4))
      omega)).trans ?_
  -- the slice at batch nb: (0, n, l) reads (nb, n, l)
  exact extractStridedSlice_apply _ _ _ _ _ (fun a => match a with
    | ⟨0, _⟩ => by show nb.val = nb.val + 0; omega
    | ⟨1, _⟩ => by show 32 * ((x 2).val / 4) + (x 3).val / 4 = 0 + (32 * ((x 2).val / 4) + (x 3).val / 4); omega
    | ⟨2, _⟩ => by
      show 16 * (x 1).val + (4 * ((x 2).val % 4) + (x 3).val % 4) = 0 + (16 * (x 1).val + (4 * ((x 2).val % 4) + (x 3).val % 4))
      omega)

end Cert.KernelIdeal.Relay

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Payload.lean ====
/-
  The head's output for the four batches of one block, read at an index.

  The body computes, from the block of tokens `X : [4, 1024, 128]`, the weight `Wt : [128, 256]`, the row
  `r : [1, 256]` and the block of masks `M : [4, 1, 256]`, the value

      out (nb, n, l) = (∑ d, X (nb, n, d) · Wt (d, l)  +  r (0, l)) · M (nb, 0, l)

  of shape `[4, 1024, 256]`. The product is taken on the tokens flattened to `[4096, 128]` (row `1024 · nb + n`),
  into a zero accumulator, after a change of float format that is the identity on extended reals; the result is
  viewed back as `[4, 1024, 256]`. The row is broadcast along batches and tokens, the masks along tokens.
-/
import proofs.«119319_j37546604102322_2_alg».proof.Proof.Gen.KernelIdeal.Skeleton
import proofs.«119319_j37546604102322_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The flattened tokens at row `1024 · nb + n` are the block's tokens at `(nb, n)`; the format change reads through. -/
theorem tokens_flat (X : FVec Ideal S4x1024x128 .f32) (nb : Fin 4) (n : Fin 1024) (d : Fin 128) :
    shapeCast S4096x128 (truncf .bf16 X bitsLt_bf16_f32) shapeCasts_S4x1024x128_S4096x128
        (ix2 (⟨1024 * nb.val + n.val, by have := nb.isLt; have := n.isLt; omega⟩ : Fin 4096) d)
      = X (ix3 nb n d) := by
  refine (shapeCast_apply _ _ _ (ix3 nb n d : S4x1024x128.Idx) (by
      rw [Shape.rowMajor_val_three, Shape.rowMajor_val_two]
      show (nb.val * 1024 + n.val) * 128 + d.val = (1024 * nb.val + n.val) * 128 + d.val
      omega)).trans ?_
  rfl

/-- The product of the flattened tokens with the weight, viewed back by batch: entry `(nb, n, l)` is
    `∑ d, X (nb, n, d) · Wt (d, l)`. -/
theorem product_apply (X : FVec Ideal S4x1024x128 .f32) (Wt : FVec Ideal S128x256 .bf16) (nb : Fin 4) (n : Fin 1024) (l : Fin 256) :
    shapeCast S4x1024x256
        (matmul dot_S4096x128_S128x256_S4096x256_1_0_0_1_n_n none
          (shapeCast S4096x128 (truncf .bf16 X bitsLt_bf16_f32) shapeCasts_S4x1024x128_S4096x128)
          (shapeCast S128x256 Wt shapeCasts_S128x256_S128x256)
          (constant S4096x256 .f32 0x00000000#32))
        shapeCasts_S4096x256_S4x1024x256 (ix3 nb n l)
      = ∑ d : Fin 128, X (ix3 nb n d) * Wt (ix2 d l) := by
  have hnb := nb.isLt
  have hn := n.isLt
  refine (shapeCast_apply _ _ _ (ix2 (⟨1024 * nb.val + n.val, by omega⟩ : Fin 4096) l : S4096x256.Idx) (by
      rw [Shape.rowMajor_val_two, Shape.rowMajor_val_three]
      show (1024 * nb.val + n.val) * 256 + l.val = (nb.val * 1024 + n.val) * 256 + l.val
      omega)).trans ?_
  rw [shapeCast_self]
  refine (Cert.Proof.PlainDot.matmul_plain_zero (M := 4096) (K := 128) (N := 256) none _ _ _).trans ?_
  exact Finset.sum_congr rfl fun d _ => congrArg (· * Wt (ix2 d l)) (tokens_flat X nb n d)

/-- The row broadcast along batches and tokens: entry `(nb, n, l)` is `r (0, l)`. -/
theorem row_apply (r : FVec Ideal S1x256 .f32) (nb : Fin 4) (n : Fin 1024) (l : Fin 256) :
    broadcastTo S4x1024x256 (shapeCast S1x1x256 (shapeCast S1x256 r shapeCasts_S1x256_S1x256) shapeCasts_S1x256_S1x1x256)
        broadcasts_S1x1x256_S4x1024x256 (ix3 nb n l)
      = r (ix2 (⟨0, Nat.one_pos⟩ : Fin 1) l) := by
  refine (broadcastTo_apply _ _ _ (ix3 (⟨0, Nat.one_pos⟩ : Fin 1) (⟨0, Nat.one_pos⟩ : Fin 1) l : S1x1x256.Idx) (fun a => match a with
    | ⟨0, _⟩ => by show (0 : Nat) = if (1 : Nat) = 1 then 0 else nb.val; rfl
    | ⟨1, _⟩ => by show (0 : Nat) = if (1 : Nat) = 1 then 0 else n.val; rfl
    | ⟨2, _⟩ => by show l.val = if (256 : Nat) = 1 then 0 else l.val; rfl)).trans ?_
  refine (shapeCast_apply _ _ _ (ix2 (⟨0, Nat.one_pos⟩ : Fin 1) l : S1x256.Idx) (by
      rw [Shape.rowMajor_val_two, Shape.rowMajor_val_three]
      show 0 * 256 + l.val = (0 * 1 + 0) * 256 + l.val
      omega)).trans ?_
  rw [shapeCast_self]

/-- The masks broadcast along tokens: entry `(nb, n, l)` is `M (nb, 0, l)`. -/
theorem mask_apply (M : FVec Ideal S4x1x256 .f32) (nb : Fin 4) (n : Fin 1024) (l : Fin 256) :
    broadcastTo S4x1024x256 (shapeCast S4x1x256 M shapeCasts_S4x1x256_S4x1x256) broadcasts_S4x1x256_S4x1024x256 (ix3 nb n l)
      = M (ix3 nb (⟨0, Nat.one_pos⟩ : Fin 1) l) := by
  refine (broadcastTo_apply _ _ _ (ix3 nb (⟨0, Nat.one_pos⟩ : Fin 1) l : S4x1x256.Idx) (fun a => match a with
    | ⟨0, _⟩ => by show nb.val = if (4 : Nat) = 1 then 0 else nb.val; rfl
    | ⟨1, _⟩ => by show (0 : Nat) = if (1 : Nat) = 1 then 0 else n.val; rfl
    | ⟨2, _⟩ => by show l.val = if (256 : Nat) = 1 then 0 else l.val; rfl)).trans ?_
  rw [shapeCast_self]

/-- The head's output for the four batches, at `(nb, n, l)`. -/
theorem head_apply (X : FVec Ideal S4x1024x128 .f32) (Wt : FVec Ideal S128x256 .bf16) (r : FVec Ideal S1x256 .f32)
    (M : FVec Ideal S4x1x256 .f32) (nb : Fin 4) (n : Fin 1024) (l : Fin 256) :
    k0_pay3 (F := Ideal) X Wt r M (ix3 nb n l)
      = ((∑ d : Fin 128, X (ix3 nb n d) * Wt (ix2 d l)) + r (ix2 (⟨0, Nat.one_pos⟩ : Fin 1) l))
          * M (ix3 nb (⟨0, Nat.one_pos⟩ : Fin 1) l) := by
  unfold k0_pay3
  exact congrArg₂ (· * ·) (congrArg₂ (· + ·) (product_apply X Wt nb n l) (row_apply r nb n l)) (mask_apply M nb n l)

end Cert.KernelIdeal.Payload

end
-- ==== Proof.Block.lean ====
/-
  What the body leaves in the output block, as one function of its input blocks.

  The body stores four pieces, one per batch of the block: piece `nb` is batch `nb`'s slab of the head's output
  re-laid as 16 channel images, stored at batch `nb` of the `[4, 16, 128, 128]` block. The four rectangles tile the
  block, and each piece is the restriction of ONE function of the block index: pixel `(nb, c, R, C)` is the head's
  output at batch `nb`, the token of the pixel's patch, and the lane of channel `c` at the pixel's position.
-/
import proofs.«119319_j37546604102322_2_alg».proof.Proof.Gen.KernelIdeal.Frame
import proofs.«119319_j37546604102322_2_alg».proof.Proof.Relay
import proofs.«119319_j37546604102322_2_alg».proof.Proof.Payload

noncomputable section

open scoped BigOperators

namespace Cert.KernelIdeal.Block

open Cert.KernelIdeal Cert.KernelIdeal.Gen Cert.KernelIdeal.Relay Cert.Proof.Spec
open Idealize.ShloMosaic Idealize.ShloMosaic.ValueIdx

/-- Pixel `(nb, c, R, C)` of the block, from the input blocks: the head's value at the pixel's token and lane. -/
def pixel (X : Vec Ideal S4x1024x128 .f32) (Wt : Vec Ideal S128x256 .bf16) (r : Vec Ideal S1x256 .f32) (M : Vec Ideal S4x1x256 .f32)
    (nb : Fin 4) (c : Fin 16) (R C : Fin 128) : EReal :=
  ((∑ d : Fin 128, X (ix3 nb (tok R C) d) * Wt (ix2 d (lane c (pos R C))))
      + r (ix2 (⟨0, Nat.one_pos⟩ : Fin 1) (lane c (pos R C))))
    * M (ix3 nb (⟨0, Nat.one_pos⟩ : Fin 1) (lane c (pos R C)))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Batch `nb`'s piece at its index `x` is the pixel `(nb, x 1, x 2, x 3)`. -/
theorem piece_apply (X : Vec Ideal S4x1024x128 .f32) (Wt : Vec Ideal S128x256 .bf16) (r : Vec Ideal S1x256 .f32)
    (M : Vec Ideal S4x1x256 .f32) (nb : Fin 4) (x : S1x16x128x128.Idx) :
    relay nb (k0_pay3 (F := Ideal) X Wt r M) x = pixel X Wt r M nb (x 1) (x 2) (x 3) :=
  (relay_apply nb _ x).trans (Payload.head_apply X Wt r M nb _ _)

/-- The block after the body: at `(nb, c, R, C)` the pixel of the input blocks. -/
theorem out_apply (X : Vec Ideal S4x1024x128 .f32) (Wt : Vec Ideal S128x256 .bf16) (r : Vec Ideal S1x256 .f32)
    (M : Vec Ideal S4x1x256 .f32) (y : S4x16x128x128.Idx) :
    (out0_4 (F := Ideal) X Wt r M y : EReal) = pixel X Wt r M (y 0) (y 1) (y 2) (y 3) := by
  unfold out0_4
  simp only [View.ld_unit_zero (S := S4x1024x128) zeros3, View.ld_unit_zero (S := S128x256) zeros2,
    View.ld_unit_zero (S := S1x256) zeros2, View.ld_unit_zero (S := S4x1x256) zeros3]
  refine View.canon_apply_of_pieces (Val := Elt Ideal) (e := .f32) (fun y => pixel X Wt r M (y 0) (y 1) (y 2) (y 3)) _ ?_ y
    (cover0_4 _ _ _ _ y)
  intro pc hpc x
  rcases List.mem_cons.mp hpc with rfl | hpc
  · show relay 3 (k0_pay3 (F := Ideal) X Wt r M) x = pixel X Wt r M (r0_7.emb x 0) (r0_7.emb x 1) (r0_7.emb x 2) (r0_7.emb x 3)
    refine (piece_apply X Wt r M 3 x).trans ?_
    have h0 : (x 0).val < 1 := (x 0).isLt
    have e0 : (3 : Fin 4) = r0_7.emb x 0 := Fin.ext (by show 3 = 3 + 1 * (x 0).val; omega)
    have e1 : (x 1 : Fin 16) = r0_7.emb x 1 := Fin.ext (by show (x 1).val = 0 + 1 * (x 1).val; omega)
    have e2 : (x 2 : Fin 128) = r0_7.emb x 2 := Fin.ext (by show (x 2).val = 0 + 1 * (x 2).val; omega)
    have e3 : (x 3 : Fin 128) = r0_7.emb x 3 := Fin.ext (by show (x 3).val = 0 + 1 * (x 3).val; omega)
    rw [← e0, ← e1, ← e2, ← e3]
  rcases List.mem_cons.mp hpc with rfl | hpc
  · show relay 2 (k0_pay3 (F := Ideal) X Wt r M) x = pixel X Wt r M (r0_6.emb x 0) (r0_6.emb x 1) (r0_6.emb x 2) (r0_6.emb x 3)
    refine (piece_apply X Wt r M 2 x).trans ?_
    have h0 : (x 0).val < 1 := (x 0).isLt
    have e0 : (2 : Fin 4) = r0_6.emb x 0 := Fin.ext (by show 2 = 2 + 1 * (x 0).val; omega)
    have e1 : (x 1 : Fin 16) = r0_6.emb x 1 := Fin.ext (by show (x 1).val = 0 + 1 * (x 1).val; omega)
    have e2 : (x 2 : Fin 128) = r0_6.emb x 2 := Fin.ext (by show (x 2).val = 0 + 1 * (x 2).val; omega)
    have e3 : (x 3 : Fin 128) = r0_6.emb x 3 := Fin.ext (by show (x 3).val = 0 + 1 * (x 3).val; omega)
    rw [← e0, ← e1, ← e2, ← e3]
  rcases List.mem_cons.mp hpc with rfl | hpc
  · show relay 1 (k0_pay3 (F := Ideal) X Wt r M) x = pixel X Wt r M (r0_5.emb x 0) (r0_5.emb x 1) (r0_5.emb x 2) (r0_5.emb x 3)
    refine (piece_apply X Wt r M 1 x).trans ?_
    have h0 : (x 0).val < 1 := (x 0).isLt
    have e0 : (1 : Fin 4) = r0_5.emb x 0 := Fin.ext (by show 1 = 1 + 1 * (x 0).val; omega)
    have e1 : (x 1 : Fin 16) = r0_5.emb x 1 := Fin.ext (by show (x 1).val = 0 + 1 * (x 1).val; omega)
    have e2 : (x 2 : Fin 128) = r0_5.emb x 2 := Fin.ext (by show (x 2).val = 0 + 1 * (x 2).val; omega)
    have e3 : (x 3 : Fin 128) = r0_5.emb x 3 := Fin.ext (by show (x 3).val = 0 + 1 * (x 3).val; omega)
    rw [← e0, ← e1, ← e2, ← e3]
  rcases List.mem_cons.mp hpc with rfl | hpc
  · show relay 0 (k0_pay3 (F := Ideal) X Wt r M) x = pixel X Wt r M (r0_4.emb x 0) (r0_4.emb x 1) (r0_4.emb x 2) (r0_4.emb x 3)
    refine (piece_apply X Wt r M 0 x).trans ?_
    have h0 : (x 0).val < 1 := (x 0).isLt
    have e0 : (0 : Fin 4) = r0_4.emb x 0 := Fin.ext (by show 0 = 0 + 1 * (x 0).val; omega)
    have e1 : (x 1 : Fin 16) = r0_4.emb x 1 := Fin.ext (by show (x 1).val = 0 + 1 * (x 1).val; omega)
    have e2 : (x 2 : Fin 128) = r0_4.emb x 2 := Fin.ext (by show (x 2).val = 0 + 1 * (x 2).val; omega)
    have e3 : (x 3 : Fin 128) = r0_4.emb x 3 := Fin.ext (by show (x 3).val = 0 + 1 * (x 3).val; omega)
    rw [← e0, ← e1, ← e2, ← e3]
  nomatch hpc

end Cert.KernelIdeal.Block

end
-- ==== Proof.HostValues.lean ====
/-
  The three arrays the program prepares on the host before the kernel runs, each as a function of the arguments and
  read at an index. A lane `l = 16 · c + p` of a 256-wide row stands for channel `c` and position `p` in a patch.

  * the tiled weight `[128, 256]`: the weight `w : [16, 128]` transposed and repeated once per channel, so entry
    `(d, 16 · c + p)` is `w (p, d)` (then a change of float format, the identity on extended reals);
  * the head's row `[1, 256]`: the first 16 rows of the embedding table times the transposed weight, plus the bias,
    flattened, so entry `(0, 16 · c + p)` is `∑ d, e (c, d) · w (p, d) + β p`;
  * the mask rows `[32, 1, 256]`: the mask `μ : [32, 16]` repeated 16 times along each channel, so entry
    `(b, 0, 16 · c + p)` is `μ (b, c)`.
-/
import proofs.«119319_j37546604102322_2_alg».proof.Proof.Gen.KernelIdeal
import proofs.«119319_j37546604102322_2_alg».proof.Proof.LibPlainDot
import proofs.«119319_j37546604102322_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.HostValues

open Cert.KernelIdeal Cert.KernelIdeal.Gen Cert.Proof.Spec Idealize.ShloMosaic Idealize.ShloMosaic.ValueIdx

/-- The weight transposed and repeated once per channel. -/
def weightTiled (w : FVec Ideal S16x128 .f32) : FVec Ideal S128x256 .bf16 :=
  truncf .bf16
    (shapeCast S128x256
      (broadcastInDim S1x128x16x16 ![0, 1, 2, 3] bcast_S1x128x1x16_S1x128x16x16_0_1_2_3
        (shapeCast S1x128x1x16 (transpose S128x16 [1, 0] w transposes_S16x128_S128x16_1_0) shapeCasts_S128x16_S1x128x1x16))
      shapeCasts_S1x128x16x16_S128x256)
    bitsLt_bf16_f32

/-- Entry `(d, 16 · c + p)` of the tiled weight is `w (p, d)`. -/
theorem weightTiled_apply (w : FVec Ideal S16x128 .f32) (d : Fin 128) (c p : Fin 16) :
    weightTiled w (ix2 d (lane c p)) = w (ix2 p d) := by
  have hc := c.isLt
  have hp := p.isLt
  unfold weightTiled
  refine (truncf_apply (ψ := .bf16) _ bitsLt_bf16_f32 _).trans ?_
  refine (shapeCast_apply _ _ _ (ix4 (⟨0, Nat.one_pos⟩ : Fin 1) d c p : S1x128x16x16.Idx) (by
      rw [Shape.rowMajor_val_four, Shape.rowMajor_val_two]
      show ((0 * 128 + d.val) * 16 + c.val) * 16 + p.val = d.val * 256 + (16 * c.val + p.val)
      omega)).trans ?_
  refine (broadcastInDim_apply _ _ _ _ (ix4 (⟨0, Nat.one_pos⟩ : Fin 1) d (⟨0, Nat.one_pos⟩ : Fin 1) p : S1x128x1x16.Idx)
    (fun a => match a with
      | ⟨0, _⟩ => by show (0 : Nat) = if (1 : Nat) = 1 then 0 else 0; rfl
      | ⟨1, _⟩ => by show d.val = if (128 : Nat) = 1 then 0 else d.val; rfl
      | ⟨2, _⟩ => by show (0 : Nat) = if (1 : Nat) = 1 then 0 else c.val; rfl
      | ⟨3, _⟩ => by show p.val = if (16 : Nat) = 1 then 0 else p.val; rfl)).trans ?_
  refine (shapeCast_apply _ _ _ (ix2 d p : S128x16.Idx) (by
      rw [Shape.rowMajor_val_two, Shape.rowMajor_val_four]
      show d.val * 16 + p.val = ((0 * 128 + d.val) * 1 + 0) * 16 + p.val
      omega)).trans ?_
  exact transpose_apply _ _ _ _ (ix2 p d : S16x128.Idx) (fun b => match b with | ⟨0, _⟩ => rfl | ⟨1, _⟩ => rfl)

/-- The embedding's first 16 rows times the transposed weight, plus the bias, flattened to one row. -/
def headRow (e : FVec Ideal S256x128 .f32) (w : FVec Ideal S16x128 .f32) (β : FVec Ideal S16 .f32) : FVec Ideal S1x256 .f32 :=
  shapeCast S1x256
    (addf
      (Host.dotGeneral dot_S16x128_S128x16_S16x16_1_0_0_1_n_n none
        (extractStridedSlice S16x128 ![0, 0] e slices_S256x128_S16x128_0_0)
        (transpose S128x16 [1, 0] w transposes_S16x128_S128x16_1_0))
      (broadcastInDim S16x16 ![0, 1] bcast_S1x16_S16x16_0_1 (broadcastInDim S1x16 ![1] bcast_S16_S1x16_1 β)))
    shapeCasts_S16x16_S1x256

/-- Entry `(0, 16 · c + p)` of the head's row is `∑ d, e (c, d) · w (p, d) + β p`. -/
theorem headRow_apply (e : FVec Ideal S256x128 .f32) (w : FVec Ideal S16x128 .f32) (β : FVec Ideal S16 .f32) (c p : Fin 16) :
    headRow e w β (ix2 (⟨0, Nat.one_pos⟩ : Fin 1) (lane c p))
      = (∑ d : Fin 128, e (ix2 (chan c) d) * w (ix2 p d)) + β (ix1 p) := by
  have hc := c.isLt
  have hp := p.isLt
  unfold headRow
  refine (shapeCast_apply _ _ _ (ix2 c p : S16x16.Idx) (by
      rw [Shape.rowMajor_val_two, Shape.rowMajor_val_two]
      show c.val * 16 + p.val = 0 * 256 + (16 * c.val + p.val)
      omega)).trans ?_
  rw [addf_apply]
  refine congrArg₂ (· + ·) ?_ ?_
  · simp only [Host.dotGeneral]
    refine (Cert.Proof.PlainDot.dotGeneral_plain (M := 16) (K := 128) (N := 16) none _ _ _ _).trans ?_
    refine Finset.sum_congr rfl fun d _ => congrArg₂ (· * ·) ?_ ?_
    · exact extractStridedSlice_apply _ _ _ _ (ix2 (chan c) d : S256x128.Idx) (fun a => match a with
        | ⟨0, _⟩ => by show c.val = 0 + c.val; omega
        | ⟨1, _⟩ => by show d.val = 0 + d.val; omega)
    · exact transpose_apply _ _ _ _ (ix2 p d : S16x128.Idx) (fun b => match b with | ⟨0, _⟩ => rfl | ⟨1, _⟩ => rfl)
  · refine (broadcastInDim_apply _ _ _ _ (ix2 (⟨0, Nat.one_pos⟩ : Fin 1) p : S1x16.Idx) (fun a => match a with
      | ⟨0, _⟩ => by show (0 : Nat) = if (1 : Nat) = 1 then 0 else c.val; rfl
      | ⟨1, _⟩ => by show p.val = if (16 : Nat) = 1 then 0 else p.val; rfl)).trans ?_
    exact broadcastInDim_apply _ _ _ _ (ix1 p : S16.Idx) (fun a => match a with
      | ⟨0, _⟩ => by show p.val = if (16 : Nat) = 1 then 0 else p.val; rfl)

/-- The mask repeated 16 times along each channel, one row per batch. -/
def maskRows (μ : FVec Ideal S32x16 .f32) : FVec Ideal S32x1x256 .f32 :=
  shapeCast S32x1x256
    (shapeCast S32x256 (broadcastInDim S32x16x16 ![0, 1] bcast_S32x16_S32x16x16_0_1 μ) shapeCasts_S32x16x16_S32x256)
    shapeCasts_S32x256_S32x1x256

/-- Entry `(b, 0, 16 · c + p)` of the mask rows is `μ (b, c)`. -/
theorem maskRows_apply (μ : FVec Ideal S32x16 .f32) (b : Fin 32) (c p : Fin 16) :
    maskRows μ (ix3 b (⟨0, Nat.one_pos⟩ : Fin 1) (lane c p)) = μ (ix2 b c) := by
  have hc := c.isLt
  have hp := p.isLt
  unfold maskRows
  refine (shapeCast_apply _ _ _ (ix2 b (lane c p) : S32x256.Idx) (by
      rw [Shape.rowMajor_val_two, Shape.rowMajor_val_three]
      show b.val * 256 + (16 * c.val + p.val) = (b.val * 1 + 0) * 256 + (16 * c.val + p.val)
      omega)).trans ?_
  refine (shapeCast_apply _ _ _ (ix3 b c p : S32x16x16.Idx) (by
      rw [Shape.rowMajor_val_three, Shape.rowMajor_val_two]
      show (b.val * 16 + c.val) * 16 + p.val = b.val * 256 + (16 * c.val + p.val)
      omega)).trans ?_
  exact broadcastInDim_apply _ _ _ _ (ix2 b c : S32x16.Idx) (fun a => match a with
    | ⟨0, _⟩ => by show b.val = if (32 : Nat) = 1 then 0 else b.val; rfl
    | ⟨1, _⟩ => by show c.val = if (16 : Nat) = 1 then 0 else c.val; rfl)

end Cert.KernelIdeal.HostValues

end
-- ==== Proof.WindowArrays.lean ====
/-
  What the kernel's windows find in their arrays when the region is entered. Window 0 stages the token argument itself.
  Windows 1, 2 and 3 stage arrays the program wrote on the host just before: reading back the host operations in
  order, they hold the tiled weight, the head's row and the mask rows of the weight, embedding, bias and mask
  arguments as launched.
-/
import proofs.«119319_j37546604102322_2_alg».proof.Proof.Gen.KernelIdeal.Frame
import proofs.«119319_j37546604102322_2_alg».proof.Proof.HostValues
import Idealize.ShloMosaic.Lib.StableHlo.Run

noncomputable section

namespace Cert.KernelIdeal.WindowArrays

open Cert.KernelIdeal Cert.KernelIdeal.Gen Cert.KernelIdeal.HostValues Idealize.ShloMosaic Idealize.ShloMosaic.TcCoe
open Idealize.SL.Sem Idealize.ShloMosaic.StableHlo

variable (m : (ℓ : Loc nD τ sig) → Buf (Elt Ideal) ℓ)

/-- Window 1's array is the tiled weight of the weight argument. -/
theorem tiledWeight_eq (c : Dev nD) :
    (V m c main_v11 : S128x256.Idx → EReal) = weightTiled (m ((c : Thread nD τ).loc main_arg3)) := by
  dsimp only [V, hostOps0]; after_results; rfl

/-- Window 2's array is the head's row of the embedding, weight and bias arguments. -/
theorem headRow_eq (c : Dev nD) :
    (V m c main_v6 : S1x256.Idx → EReal)
      = headRow (m ((c : Thread nD τ).loc main_arg2)) (m ((c : Thread nD τ).loc main_arg3)) (m ((c : Thread nD τ).loc main_arg4)) := by
  dsimp only [V, hostOps0]; after_results; rfl

/-- Window 3's array is the mask rows of the mask argument. -/
theorem maskRows_eq (c : Dev nD) :
    (V m c main_v14 : S32x1x256.Idx → EReal) = maskRows (m ((c : Thread nD τ).loc main_arg1)) := by
  dsimp only [V, hostOps0]; after_results; rfl

end Cert.KernelIdeal.WindowArrays

end
-- ==== Proof.KernelValue.lean ====
/-
  The kernel program's output array after the run: the head in its split form, of the arguments as launched.

  The grid has 8 points; point `t` works on batches `4 t … 4 t + 3`. Its token block and mask block are those batches
  of the token argument and of the mask rows; the tiled weight and the head's row are read whole at every point; its
  output block is those batches of the output array. So pixel `(nb, c, R, C)` of the block point `t` writes back is
  the split form at batch `4 t + nb`: the block's tokens are the argument's, the tiled weight's lane `16 c + p` is
  row `p` of the weight, the head's row at that lane is the embedding's contraction plus the bias, and the mask row at
  that lane is the mask at `(4 t + nb, c)`. The 8 output blocks tile the array (batch `b` lies in block `b / 4`), so
  the array ends holding the split form everywhere.
-/
import proofs.«119319_j37546604102322_2_alg».proof.Proof.Gen.KernelIdeal.Value
import proofs.«119319_j37546604102322_2_alg».proof.Proof.Block
import proofs.«119319_j37546604102322_2_alg».proof.Proof.WindowArrays
import proofs.«119319_j37546604102322_2_alg».proof.Proof.Arrays

noncomputable section

open scoped BigOperators

namespace Cert.KernelIdeal.KernelValue

open Cert.KernelIdeal Cert.KernelIdeal.Gen Cert.KernelIdeal.HostValues Cert.KernelIdeal.WindowArrays Cert.KernelIdeal.Block
open Cert.Proof.Spec Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The printed index maps over the grid: the token, mask and output windows are at block `t` on the batch axis and at
    block 0 elsewhere; the weight and row windows stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 4) = t.val ∧ win0_4.index t (1 : Fin 4) = 0 ∧ win0_4.index t (2 : Fin 4) = 0
    ∧ win0_4.index t (3 : Fin 4) = 0 :=
  (by decide +kernel : ∀ t : Fin grid0.N, _)

/-- The token block at point `t`: batch `nb` of the block is batch `4 t + nb` of the token argument. -/
theorem tokens_block (c : Dev nD) (t : Fin cfg0.N) (nb : Fin 4) (n : Fin 1024) (d : Fin 128) (b : Fin 32)
    (hb : b.val = 4 * t.val + nb.val) :
    iblk m c 0 t (ix3 nb n d) = m ((c : Thread nD τ).loc main_arg0) (ix3 b n d) := by
  obtain ⟨e0, e1, e2, -⟩ := idx_facts t
  show V m c main_arg0 (((cfg0.win 0).blk t).view.emb (ix3 nb n d)) = _
  rw [V_main_arg0]
  refine congrArg _ (funext fun a => Fin.ext ?_)
  match a with
  | ⟨0, _⟩ => show win0_0.index t (0 : Fin 3) * 4 + 1 * nb.val = b.val; omega
  | ⟨1, _⟩ => show win0_0.index t (1 : Fin 3) * 1024 + 1 * n.val = n.val; omega
  | ⟨2, _⟩ => show win0_0.index t (2 : Fin 3) * 128 + 1 * d.val = d.val; omega

/-- The weight block at any point is the whole tiled weight: lane `16 c + p` of row `d` is the weight at `(p, d)`. -/
theorem weight_block (c : Dev nD) (t : Fin cfg0.N) (d : Fin 128) (ch p : Fin 16) :
    iblk m c 1 t (ix2 d (lane ch p)) = m ((c : Thread nD τ).loc main_arg3) (ix2 p d) := by
  obtain ⟨-, -, -, e0, e1, -⟩ := idx_facts t
  show V m c main_v11 (((cfg0.win 1).blk t).view.emb (ix2 d (lane ch p))) = _
  have hi : ((cfg0.win 1).blk t).view.emb (ix2 d (lane ch p)) = (ix2 d (lane ch p) : S128x256.Idx) :=
    funext fun a => Fin.ext (by
      match a with
      | ⟨0, _⟩ => show win0_1.index t (0 : Fin 2) * 128 + 1 * d.val = d.val; omega
      | ⟨1, _⟩ => show win0_1.index t (1 : Fin 2) * 256 + 1 * (lane ch p).val = (lane ch p).val; omega)
  rw [hi]
  exact (congrFun (tiledWeight_eq m c) _).trans (weightTiled_apply _ d ch p)

/-- The embedding's share of the head at channel `ch` and position `p`: its contraction with the weight, plus the bias. -/
def embedShare (e : FVec Ideal S256x128 .f32) (w : FVec Ideal S16x128 .f32) (β : FVec Ideal S16 .f32) (ch p : Fin 16) : EReal :=
  (∑ d : Fin 128, e (ix2 (chan ch) d) * w (ix2 p d)) + β (ix1 p)

/-- The row block at any point is the whole head's row. -/
theorem row_block (c : Dev nD) (t : Fin cfg0.N) (ch p : Fin 16) :
    iblk m c 2 t (ix2 (⟨0, Nat.one_pos⟩ : Fin 1) (lane ch p))
      = embedShare (m ((c : Thread nD τ).loc main_arg2)) (m ((c : Thread nD τ).loc main_arg3))
          (m ((c : Thread nD τ).loc main_arg4)) ch p := by
  obtain ⟨-, -, -, -, -, e0, e1, -⟩ := idx_facts t
  show V m c main_v6 (((cfg0.win 2).blk t).view.emb (ix2 (⟨0, Nat.one_pos⟩ : Fin 1) (lane ch p))) = _
  have hi : ((cfg0.win 2).blk t).view.emb (ix2 (⟨0, Nat.one_pos⟩ : Fin 1) (lane ch p))
      = (ix2 (⟨0, Nat.one_pos⟩ : Fin 1) (lane ch p) : S1x256.Idx) :=
    funext fun a => Fin.ext (by
      match a with
      | ⟨0, _⟩ => show win0_2.index t (0 : Fin 2) * 1 + 1 * 0 = 0; omega
      | ⟨1, _⟩ => show win0_2.index t (1 : Fin 2) * 256 + 1 * (lane ch p).val = (lane ch p).val; omega)
  rw [hi]
  exact (congrFun (headRow_eq m c) _).trans (headRow_apply _ _ _ ch p)

/-- The mask block at point `t`: batch `nb` of the block at lane `16 c + p` is the mask at `(4 t + nb, c)`. -/
theorem mask_block (c : Dev nD) (t : Fin cfg0.N) (nb : Fin 4) (ch p : Fin 16) (b : Fin 32)
    (hb : b.val = 4 * t.val + nb.val) :
    iblk m c 3 t (ix3 nb (⟨0, Nat.one_pos⟩ : Fin 1) (lane ch p)) = m ((c : Thread nD τ).loc main_arg1) (ix2 b ch) := by
  obtain ⟨-, -, -, -, -, -, -, e0, e1, e2, -⟩ := idx_facts t
  show V m c main_v14 (((cfg0.win 3).blk t).view.emb (ix3 nb (⟨0, Nat.one_pos⟩ : Fin 1) (lane ch p))) = _
  have hi : ((cfg0.win 3).blk t).view.emb (ix3 nb (⟨0, Nat.one_pos⟩ : Fin 1) (lane ch p))
      = (ix3 b (⟨0, Nat.one_pos⟩ : Fin 1) (lane ch p) : S32x1x256.Idx) :=
    funext fun a => Fin.ext (by
      match a with
      | ⟨0, _⟩ => show win0_3.index t (0 : Fin 3) * 4 + 1 * nb.val = b.val; omega
      | ⟨1, _⟩ => show win0_3.index t (1 : Fin 3) * 1 + 1 * 0 = 0; omega
      | ⟨2, _⟩ => show win0_3.index t (2 : Fin 3) * 256 + 1 * (lane ch p).val = (lane ch p).val; omega)
  rw [hi]
  exact (congrFun (maskRows_eq m c) _).trans (maskRows_apply _ b ch p)

/-- The block point `t` leaves, at `(nb, c, R, C)`, is the split form at batch `4 t + nb`. -/
theorem block_apply (c : Dev nD) (t : Fin cfg0.N) (y : S4x16x128x128.Idx) (b : Fin 32) (hb : b.val = 4 * t.val + (y 0).val) :
    (out0_4 (F := Ideal) (iblk m c 0 t) (iblk m c 1 t) (iblk m c 2 t) (iblk m c 3 t) y : EReal)
      = splitForm (m ((c : Thread nD τ).loc main_arg0)) (m ((c : Thread nD τ).loc main_arg1))
          (m ((c : Thread nD τ).loc main_arg2)) (m ((c : Thread nD τ).loc main_arg3)) (m ((c : Thread nD τ).loc main_arg4))
          b (y 1) (y 2) (y 3) := by
  refine (out_apply (iblk m c 0 t) (iblk m c 1 t) (iblk m c 2 t) (iblk m c 3 t) y).trans ?_
  unfold pixel splitForm
  refine congrArg₂ (· * ·) (congrArg₂ (· + ·) (Finset.sum_congr rfl fun d _ => congrArg₂ (· * ·) ?_ ?_) ?_) ?_
  · exact tokens_block m c t (y 0) _ d b hb
  · exact weight_block m c t d (y 1) _
  · exact row_block m c t (y 1) _
  · exact mask_block m c t (y 0) (y 1) _ b hb

/-- WHAT POINT `t` WRITES BACK is block `t` of the split form of the arguments. -/
theorem flushed_eq (c : Dev nD) (t : Fin cfg0.N) :
    (dats m 0 c).flushed 4 t = ((cfg0.win 4).blk t).view.read (Elt Ideal)
      (splitArray (m ((c : Thread nD τ).loc main_arg0)) (m ((c : Thread nD τ).loc main_arg1))
        (m ((c : Thread nD τ).loc main_arg2)) (m ((c : Thread nD τ).loc main_arg3)) (m ((c : Thread nD τ).loc main_arg4))) := by
  rw [Value.flushed4]
  obtain ⟨-, -, -, -, -, -, -, -, -, -, o0, o1, o2, o3⟩ := idx_facts t
  have ht : t.val < 8 := lt_of_lt_of_eq t.isLt N_0
  funext j
  have hj0 : (j 0).val < 4 := (j 0).isLt
  have hemb : ((cfg0.win 4).blk t).view.emb j
      = (ix4 (⟨4 * t.val + (j 0).val, by omega⟩ : Fin 32) (j 1) (j 2) (j 3) : S32x16x128x128.Idx) :=
    funext fun a => Fin.ext (by
      match a with
      | ⟨0, _⟩ => show win0_4.index t (0 : Fin 4) * 4 + 1 * (j 0).val = 4 * t.val + (j 0).val; omega
      | ⟨1, _⟩ => show win0_4.index t (1 : Fin 4) * 16 + 1 * (j 1).val = (j 1).val; omega
      | ⟨2, _⟩ => show win0_4.index t (2 : Fin 4) * 128 + 1 * (j 2).val = (j 2).val; omega
      | ⟨3, _⟩ => show win0_4.index t (3 : Fin 4) * 128 + 1 * (j 3).val = (j 3).val; omega)
  show (out0_4 (F := Ideal) (iblk m c 0 t) (iblk m c 1 t) (iblk m c 2 t) (iblk m c 3 t) j : EReal)
    = splitArray _ _ _ _ _ (((cfg0.win 4).blk t).view.emb j)
  rw [hemb]
  exact block_apply m c t j _ rfl

/-- An index of the output array is in point `t`'s block iff each coordinate is in the block's range on its axis. -/
theorem mem_blk (t : Fin cfg0.N) (i : S32x16x128x128.Idx) :
    i ∈ ((cfg0.win 4).blk t).view.set ↔ ∀ a : Fin 4, win0_4.index t a * S4x16x128x128.size a ≤ (i a).val
      ∧ (i a).val < win0_4.index t a * S4x16x128x128.size a + S4x16x128x128.size a := by
  show i ∈ ((View.whole main_v15).slice (win0_4.rect t)).set ↔ _
  rw [View.set_slice_whole, Rect.mem_set_unit]
  exact Iff.rfl

/-- Every index of the output array is in some point's block: batch `b` is in the block of point `b / 4`. -/
theorem cover (i : S32x16x128x128.Idx) :
    ∃ t : Fin cfg0.N, (cfg0.win 4).flush t = true ∧ i ∈ ((cfg0.win 4).blk t).view.set := by
  have hi0 : (i 0).val < 32 := (i 0).isLt
  have hi1 : (i 1).val < 16 := (i 1).isLt
  have hi2 : (i 2).val < 128 := (i 2).isLt
  have hi3 : (i 3).val < 128 := (i 3).isLt
  have hq : (i 0).val / 4 < cfg0.N := by show (i 0).val / 4 < grid0.N; rw [N_0]; omega
  obtain ⟨-, -, -, -, -, -, -, -, -, -, o0, o1, o2, o3⟩ := idx_facts ⟨(i 0).val / 4, hq⟩
  have o0' : win0_4.index ⟨(i 0).val / 4, hq⟩ (0 : Fin 4) = (i 0).val / 4 := o0
  refine ⟨⟨(i 0).val / 4, hq⟩, flush0_4 _, ?_⟩
  rw [mem_blk]
  intro a
  match a with
  | ⟨0, _⟩ =>
    show win0_4.index ⟨(i 0).val / 4, hq⟩ (0 : Fin 4) * 4 ≤ (i 0).val
      ∧ (i 0).val < win0_4.index ⟨(i 0).val / 4, hq⟩ (0 : Fin 4) * 4 + 4
    omega
  | ⟨1, _⟩ =>
    show win0_4.index ⟨(i 0).val / 4, hq⟩ (1 : Fin 4) * 16 ≤ (i 1).val
      ∧ (i 1).val < win0_4.index ⟨(i 0).val / 4, hq⟩ (1 : Fin 4) * 16 + 16
    omega
  | ⟨2, _⟩ =>
    show win0_4.index ⟨(i 0).val / 4, hq⟩ (2 : Fin 4) * 128 ≤ (i 2).val
      ∧ (i 2).val < win0_4.index ⟨(i 0).val / 4, hq⟩ (2 : Fin 4) * 128 + 128
    omega
  | ⟨3, _⟩ =>
    show win0_4.index ⟨(i 0).val / 4, hq⟩ (3 : Fin 4) * 128 ≤ (i 3).val
      ∧ (i 3).val < win0_4.index ⟨(i 0).val / 4, hq⟩ (3 : Fin 4) * 128 + 128
    omega

/-- THE OUTPUT ARRAY after the run: the split form of the arguments. -/
theorem final (c : Dev nD) :
    (dats m 0 c).arrAt 4 cfg0.N
      = splitArray (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 4 _ (fun t _ => flushed_eq m c t) cover

/-- The kernel program's run: the result is the split form of the arguments, the arguments are unchanged. -/
theorem run : θ_run defs (onTc (τ := τ) (main (F := Ideal))) ⟨m, fun _ => 0, ρ⟩ fun r => ∀ c : Dev nD,
      r.2.mem ((c : Thread nD τ).loc main_v15)
        = splitArray (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.RefValue.lean ====
/-
  The reference program's result, read at an index: it is the head in its summed form.

  The reference adds the channel embedding to every token (a `[32, 16, 1024, 128]` array), contracts the last axis with
  the weight, adds the bias: entry `(b, c, n, p)` of these patches is `∑ d, (x (b, n, d) + e (c, d)) · w (p, d) + β p`.
  It then views the 1024 tokens as a 32 × 32 grid and the 16 positions as 4 × 4 (`[32, 16, 32, 32, 4, 4]`), swaps the
  grid column with the patch row (`[32, 16, 32, 4, 32, 4]`) and flattens to images `[32, 16, 128, 128]`: pixel
  `(b, c, R, C)` is the patches' entry at token `32 · (R / 4) + C / 4` and position `4 · (R % 4) + C % 4`. Last it
  multiplies by the mask broadcast over each image.
-/
import proofs.«119319_j37546604102322_2_alg».proof.Proof.Gen.ReferenceIdeal.Read
import proofs.«119319_j37546604102322_2_alg».proof.Proof.Spec
import Idealize.ShloMosaic.Lib.Pipeline.Value
import Idealize.ShloMosaic.Lib.ValueIdx
import Idealize.ShloMosaic.Lib.ValueIdxRank6

noncomputable section

open scoped BigOperators

namespace Cert.ReferenceIdeal.RefValue

open Cert.ReferenceIdeal Cert.ReferenceIdeal.Gen Cert.ReferenceIdeal.Read Cert.Proof.Spec
open Idealize.ShloMosaic Idealize.ShloMosaic.ValueIdx

variable (x0 : FVec Ideal S32x1024x128 .f32) (x1 : FVec Ideal S32x16 .f32) (x2 : FVec Ideal S256x128 .f32)
  (x3 : FVec Ideal S16x128 .f32) (x4 : FVec Ideal S16 .f32)

/-- The patches before they are re-laid: entry `(b, c, n, p)`. -/
theorem patches_apply (b : Fin 32) (c : Fin 16) (n : Fin 1024) (p : Fin 16) :
    val_main_v9 (F := Ideal) x0 x2 x3 x4 (ix4 b c n p)
      = (∑ d : Fin 128, (x0 (ix3 b n d) + x2 (ix2 (chan c) d)) * x3 (ix2 p d)) + x4 (ix1 p) := by
  rw [val_main_v9_apply, val_main_v6_apply, val_main_v8_apply, val_main_v7_apply]
  simp only [Ideal.addf_def]
  refine congrArg₂ (· + ·) (Finset.sum_congr rfl fun d _ => congrArg₂ (· * ·) ?_ ?_) ?_
  · rw [val_main_v5_apply, val_main_v3_apply, val_main_v1_apply, val_main_v4_apply, val_main_v2_apply, val_main_v0_apply]
    simp only [Ideal.addf_def]
    refine congrArg₂ (· + ·) (congrArg x0 ?_) (congrArg x2 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact congrArg x3 (funext fun a => Fin.ext (by match a with | ⟨0, _⟩ => rfl | ⟨1, _⟩ => rfl))
  · exact congrArg x4 (funext fun a => Fin.ext (by match a with | ⟨0, _⟩ => rfl))

/-- The patches re-laid as images: pixel `(b, c, R, C)` is the patches' entry at the pixel's token and position. -/
theorem relaid_apply (b : Fin 32) (c : Fin 16) (R C : Fin 128) :
    val_main_v12 (F := Ideal) x0 x2 x3 x4 (ix4 b c R C)
      = val_main_v9 (F := Ideal) x0 x2 x3 x4 (ix4 b c (tok R C) (pos R C)) := by
  have hR := R.isLt
  have hC := C.isLt
  unfold val_main_v12
  -- the image split into patches: (b, c, R, C) reads (b, c, R / 4, R % 4, C / 4, C % 4)
  refine (shapeCast_apply _ _ _
    (ix6 b c (⟨R.val / 4, by omega⟩ : Fin 32) (⟨R.val % 4, by omega⟩ : Fin 4) (⟨C.val / 4, by omega⟩ : Fin 32)
      (⟨C.val % 4, by omega⟩ : Fin 4) : S32x16x32x4x32x4.Idx) (by
      rw [Shape.rowMajor_val_six, Shape.rowMajor_val_four]
      show (((((b.val * 16 + c.val) * 32 + R.val / 4) * 4 + R.val % 4) * 32 + C.val / 4) * 4 + C.val % 4)
        = ((b.val * 16 + c.val) * 128 + R.val) * 128 + C.val
      omega)).trans ?_
  -- the swap of grid column and patch row
  rw [val_main_v11_apply]
  unfold val_main_v10
  -- the grid as tokens, the 4 × 4 patch as positions
  refine (shapeCast_apply _ _ _ (ix4 b c (tok R C) (pos R C) : S32x16x1024x16.Idx) (by
      rw [Shape.rowMajor_val_four, Shape.rowMajor_val_six]
      show ((b.val * 16 + c.val) * 1024 + (32 * (R.val / 4) + C.val / 4)) * 16 + (4 * (R.val % 4) + C.val % 4)
        = (((((b.val * 16 + c.val) * 32 + R.val / 4) * 32 + C.val / 4) * 4 + R.val % 4) * 4 + C.val % 4)
      omega)).trans ?_
  rfl

/-- The mask broadcast over each image: entry `(b, c, R, C)` is the mask at `(b, c)`. -/
theorem mask_apply (b : Fin 32) (c : Fin 16) (R C : Fin 128) :
    val_main_v14 (F := Ideal) x1 (ix4 b c R C) = x1 (ix2 b c) := by
  rw [val_main_v14_apply, val_main_v13_apply]
  exact congrArg x1 (funext fun a => Fin.ext (by match a with | ⟨0, _⟩ => rfl | ⟨1, _⟩ => rfl))

/-- The reference's result at pixel `(b, c, R, C)` is the head's summed form of the five arguments. -/
theorem result_apply (b : Fin 32) (c : Fin 16) (R C : Fin 128) :
    val_main_v15 (F := Ideal) x0 x1 x2 x3 x4 (ix4 b c R C) = summedForm x0 x1 x2 x3 x4 b c R C := by
  rw [val_main_v15_apply, relaid_apply, patches_apply, mask_apply]
  rfl

end Cert.ReferenceIdeal.RefValue

end
-- ==== Proof.Finite.lean ====
/-
  From the precondition to real entries. The precondition says, for each of the five arguments, that every entry's
  absolute value is below the float word of plus infinity, and conjoins the five. On the extended reals that word is
  `⊤` and `|a|` is `max a (-a)`, so `|a| < ⊤` rules out both `a = ⊤` and `a = ⊥`: the entry is a real number. Only the
  tokens, the embedding table and the weight are needed below.
-/
import proofs.«119319_j37546604102322_2_alg».proof.Proof.Gen.Pre_finite_inputs
import proofs.«119319_j37546604102322_2_alg».proof.Proof.Spec
import Idealize.ShloMosaic.Lib.ReduceAll
import Idealize.ShloMosaic.Lib.Affine
import Idealize.ShloMosaic.Lib.ValueIdx

noncomputable section

namespace Cert.Pre_finite_inputs.Finite

open Cert.Pre_finite_inputs Cert.Proof.Spec Idealize.ShloMosaic Idealize.ShloMosaic.ValueIdx

/-- The scalar shape has one index. -/
instance : Subsingleton S_.Idx := ⟨fun a b => funext fun d => d.elim0⟩

/-- The float word of plus infinity is `⊤`. -/
theorem inf_word : Ideal.ofBits .f32 0x7F800000#32 = ⊤ := by simp [Ideal.ofBits, Ideal.ieee]

/-- An extended real whose absolute value compares below plus infinity is a real number. -/
theorem isReal_of_abs_lt_inf (a : EReal)
    (h : Ideal.cmp .olt (max a (-a)) (Ideal.ofBits .f32 0x7F800000#32) = 1#1) : IsReal a := by
  rw [inf_word] at h
  have hlt : max a (-a) < ⊤ := by
    by_contra hn
    simp [Ideal.cmp, hn] at h
  induction a using EReal.rec with
  | bot => simp at hlt
  | coe r => exact ⟨r, rfl⟩
  | top => simp at hlt

/-- One argument's conjunct of the precondition: `all (|a| < +inf)` holding gives every entry real. -/
theorem all_real {s : Shape} {axes : List (Fin s.rank)} (a : FVec Ideal s .f32)
    (hb : S_.BroadcastsInDim s (![] : Fin 0 → Fin s.rank)) (hr : s.ReducesTo axes S_) (hpos : 0 < S_.numel)
    (h : Host.reduce IntOp.andi
        (cmpf .olt (Host.absf a) (broadcastInDim s ![] hb (constant (F := Ideal) S_ .f32 0x7F800000#32)))
        (constantI S_ 1 1#1) hr hpos ix0 = 1#1) :
    ∀ i, IsReal (a i) := fun i =>
  isReal_of_abs_lt_inf (a i) (Host.reduce_andi_all _ _ hr hpos ix0 h i)

variable [Facts]

/-- Under the precondition the tokens, the embedding table and the weight have real entries. -/
theorem reals_of_pre (x : FVec Ideal S32x1024x128 .f32) (μ : FVec Ideal S32x16 .f32) (e : FVec Ideal S256x128 .f32)
    (w : FVec Ideal S16x128 .f32) (β : FVec Ideal S16 .f32) (h : fn (F := Ideal) x μ e w β = fun _ => 1#1) :
    (∀ i, IsReal (x i)) ∧ (∀ i, IsReal (e i)) ∧ (∀ i, IsReal (w i)) := by
  have h0 := congrFun h ix0
  dsimp only [fn, fn_part1, andi] at h0
  simp only [IntOp.andi_eq_one] at h0
  obtain ⟨⟨⟨⟨hx, -⟩, he⟩, hw⟩, -⟩ := h0
  exact ⟨all_real x _ _ _ hx, all_real e _ _ _ he, all_real w _ _ _ hw⟩

end Cert.Pre_finite_inputs.Finite

end
-- ==== Proof.lean ====
/-
  A query-based decoder head on a 32 × 1024 × 128 batch of tokens: for each of 16 channels add the channel's
  embedding to every token, apply a linear head to 16 numbers per token, lay each token's 16 numbers out as a 4 × 4
  patch of a 128 × 128 image (the 1024 tokens being a 32 × 32 grid of patches), and multiply by a per-(batch, channel)
  mask. The reference does exactly this. The kernel uses that the head is linear: it contracts the tokens with the
  weight once, contracts the 16 embedding rows with the weight (adding the bias) on the side, adds the two, masks, and
  lays out the image inside the kernel, four batches per grid point.

  On the extended reals both programs compute, at pixel `(b, c, R, C)` with token `n = 32 (R / 4) + C / 4` and patch
  position `p = 4 (R % 4) + C % 4`,

      reference   (∑ d, (x (b, n, d) + e (c, d)) · w (p, d) + β p) · μ (b, c)
      kernel      (∑ d, x (b, n, d) · w (p, d) + (∑ d, e (c, d) · w (p, d) + β p)) · μ (b, c)

  and these agree because `(x + e) · w = x · w + e · w` for real `x`, `e`, `w` — which is where the precondition (every
  input finite) is used: at infinities the law fails. The changes of float format in the kernel are the identity on
  extended reals and its matrix product accumulates into zero, so nothing else separates the two sides.

  The kernel side: what one grid point's body leaves in its output block (Block, over Relay and Payload), what the
  windows find in their arrays (HostValues, WindowArrays), and the blocks glued to the whole array (KernelValue). The
  reference side: its stages read at an index (RefValue). The two forms and the law between them: Spec, Arrays. The
  precondition read as real entries: Finite. The three frames are the generated ones.
-/
import proofs.«119319_j37546604102322_2_alg».proof.Defs
import proofs.«119319_j37546604102322_2_alg».proof.Proof.Gen.Kernel
import proofs.«119319_j37546604102322_2_alg».proof.Proof.Gen.Kernel.Skeleton
import proofs.«119319_j37546604102322_2_alg».proof.Proof.Gen.Kernel.Launch
import proofs.«119319_j37546604102322_2_alg».proof.Proof.Gen.Kernel.Points
import proofs.«119319_j37546604102322_2_alg».proof.Proof.Gen.Kernel.Frame
import proofs.«119319_j37546604102322_2_alg».proof.Proof.Gen.KernelIdeal
import proofs.«119319_j37546604102322_2_alg».proof.Proof.Gen.KernelIdeal.Skeleton
import proofs.«119319_j37546604102322_2_alg».proof.Proof.Gen.KernelIdeal.Launch
import proofs.«119319_j37546604102322_2_alg».proof.Proof.Gen.KernelIdeal.Points
import proofs.«119319_j37546604102322_2_alg».proof.Proof.Gen.KernelIdeal.Frame
import proofs.«119319_j37546604102322_2_alg».proof.Proof.Gen.ReferenceIdeal
import proofs.«119319_j37546604102322_2_alg».proof.Proof.Gen.Pre_finite_inputs
import proofs.«119319_j37546604102322_2_alg».proof.Proof.Gen.KernelIdeal.Value
import proofs.«119319_j37546604102322_2_alg».proof.Proof.Gen.ReferenceIdeal.Run
import proofs.«119319_j37546604102322_2_alg».proof.Proof.Gen.ReferenceIdeal.Read
import proofs.«119319_j37546604102322_2_alg».proof.Proof.Arrays
import proofs.«119319_j37546604102322_2_alg».proof.Proof.KernelValue
import proofs.«119319_j37546604102322_2_alg».proof.Proof.RefValue
import proofs.«119319_j37546604102322_2_alg».proof.Proof.Finite
import Idealize.ShloMosaic.Adequacy
import Idealize.ShloMosaic.Init

noncomputable section

namespace Cert.Proof

open Idealize.ShloMosaic Idealize.ShloMosaic.ValueIdx Idealize.SL.Sem Cert.Proof.Spec

/-- The kernel program as printed runs and leaves its arguments as they were. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten to read it at the extended reals. -/
theorem preserves : Cert.preserves_Kernel_KernelIdeal := trivial

/-- From arguments that agree, the kernel program ends at the head's split form and the reference at its summed form;
    the precondition makes the tokens, the embedding and the weight real, where the two forms are one array. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, he, hw⟩ := Cert.Pre_finite_inputs.Finite.reals_of_pre _ _ _ _ _ (hpre c)
  rw [Cert.ReferenceIdeal.Read.val_main_v15_eq, (hagree c).1, (hagree c).2.1, (hagree c).2.2.1, (hagree c).2.2.2.1,
    (hagree c).2.2.2.2, ← summedArray_eq_splitArray _ _ _ _ _ hx he hw]
  funext i
  obtain ⟨b, ch, R, C, rfl⟩ : ∃ (b : Fin 32) (ch : Fin 16) (R C : Fin 128), i = ix4 b ch R C :=
    ⟨i 0, i 1, i 2, i 3, eq_ix4 i⟩
  exact Cert.ReferenceIdeal.RefValue.result_apply _ _ _ _ _ b ch R C

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
